-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S2048x2048 : Shape := ⟨2, ![2048, 2048]⟩
abbrev S2048 : Shape := ⟨1, ![2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  main_v18

def fn {F : FTy → Type} [FloatOps F] (main_arg0 : FVec F S8192x2048 .f32) (main_arg1 : FVec F S2048x2048 .f32) (main_arg2 : FVec F S2048x2048 .f32) (main_arg3 : FVec F S2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_v13 main_v16
-- ==== Kernel.lean ====
abbrev S8192x2048 : Shape := ⟨2, ![8192, 2048]⟩
abbrev S2048x2048 : Shape := ⟨2, ![2048, 2048]⟩
abbrev S2048 : Shape := ⟨1, ![2048]⟩
abbrev S_ : Shape := ⟨0, ![]⟩
abbrev S1x2048 : Shape := ⟨2, ![1, 2048]⟩
abbrev S1024x2048 : Shape := ⟨2, ![1024, 2048]⟩
abbrev S256x2048 : Shape := ⟨2, ![256, 2048]⟩
abbrev S1x256 : Shape := ⟨2, ![1, 256]⟩
abbrev S1024x256 : Shape := ⟨2, ![1024, 256]⟩
abbrev S2048x256 : Shape := ⟨2, ![2048, 256]⟩
abbrev S1024 : Shape := ⟨1, ![1024]⟩
abbrev S1024x1 : Shape := ⟨2, ![1024, 1]⟩

abbrev nBuf : Space → Nat
  | .hbm => 21
  | .vmem => 14
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S2048x2048, .f32⟩
  | .hbm, ⟨3, _⟩ => ⟨S2048, .f32⟩
  | .hbm, ⟨4, _⟩ => ⟨S2048x2048, .f32⟩
  | .hbm, ⟨5, _⟩ => ⟨S_, .f32⟩
  | .hbm, ⟨6, _⟩ => ⟨S2048, .f32⟩
  | .hbm, ⟨7, _⟩ => ⟨S2048, .f32⟩
  | .hbm, ⟨8, _⟩ => ⟨S1x2048, .f32⟩
  | .hbm, ⟨9, _⟩ => ⟨S2048x2048, .f32⟩
  | .hbm, ⟨10, _⟩ => ⟨S_, .f32⟩
  | .hbm, ⟨11, _⟩ => ⟨S2048, .f32⟩
  | .hbm, ⟨12, _⟩ => ⟨S1x2048, .f32⟩
  | .hbm, ⟨13, _⟩ => ⟨S2048, .f32⟩
  | .hbm, ⟨14, _⟩ => ⟨S_, .f32⟩
  | .hbm, ⟨15, _⟩ => ⟨S2048, .f32⟩
  | .hbm, ⟨16, _⟩ => ⟨S2048, .f32⟩
  | .hbm, ⟨17, _⟩ => ⟨S1x2048, .f32⟩
  | .hbm, ⟨18, _⟩ => ⟨S2048x2048, .bf16⟩
  | .hbm, ⟨19, _⟩ => ⟨S2048x2048, .bf16⟩
  | .hbm, ⟨20, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S1x256, .f32⟩
  | .local _ .vmem, ⟨7, _⟩ => ⟨S1x256, .f32⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S1024x256, .f32⟩
  | .local _ .vmem, ⟨13, _⟩ => ⟨S1024x256, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  reducesTo_S2048x2048_S2048_d1 : S2048x2048.ReducesTo [1] S2048
  h_S_ : 0 < S_.numel
  shapeCasts_S2048_S1x2048 : S2048.ShapeCasts S1x2048
  bcast_S_S2048 : S_.BroadcastsInDim S2048 (![] : Fin 0 → Fin S2048.rank)
  bitsLt_bf16_f32 : FTy.bits .bf16 < FTy.bits .f32
  inb_S1024x2048_S1024x2048_0_0 : ∀ a, (![0, 0] : Fin 2 → Nat) a + S1024x2048.size a ≤ S1024x2048.size a
  h_S1024x2048 : 0 < S1024x2048.numel
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  transposes_S256x2048_p1_0_S2048x256 : S256x2048.Transposes [1, 0] S2048x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  reduces_S1024x2048_S1024 : S1024x2048.Reduces [1] S1024
  shapeCasts_S1024_S1024x1 : S1024.ShapeCasts S1024x1
  broadcasts_S1024x1_S1024x256 : S1024x1.Broadcasts S1024x256
  inb_S1024x256_S1024x256_0_0 : ∀ a, (![0, 0] : Fin 2 → Nat) a + S1024x256.size a ≤ S1024x256.size a
  h_S1024x256 : 0 < S1024x256.numel
  dot_S1024x2048_S2048x256_S1024x256_1_0_0_1_n_n_wf : DotDims.WF S1024x2048 S2048x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x2048.size a
  hwx0_0 : ∀ i : grid0.Coords, EltTy.bits .f32 = 32 ∨ (Rect.block (s := S8192x2048) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S2048x2048.size a
  hwx0_1 : ∀ i : grid0.Coords, EltTy.bits .bf16 = 32 ∨ (Rect.block (s := S2048x2048) S256x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x2048.size a ≤ S2048x2048.size a
  hwx0_2 : ∀ i : grid0.Coords, EltTy.bits .bf16 = 32 ∨ (Rect.block (s := S2048x2048) S256x2048.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x2048.size a
  hwx0_3 : ∀ i : grid0.Coords, EltTy.bits .f32 = 32 ∨ (Rect.block (s := S1x2048) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x2048.size a
  hwx0_4 : ∀ i : grid0.Coords, EltTy.bits .f32 = 32 ∨ (Rect.block (s := S1x2048) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x2048.size a
  hwx0_5 : ∀ i : grid0.Coords, EltTy.bits .f32 = 32 ∨ (Rect.block (s := S1x2048) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x256.size a ≤ S8192x2048.size a
  hwx0_6 : ∀ i : grid0.Coords, EltTy.bits .f32 = 32 ∨ (Rect.block (s := S8192x2048) S1024x256.size (cc0_transform_6 i) (hinb0_6 i)).WholeWords (EltTy.packing .f32)

variable [Facts₀]

def dot_S1024x2048_S2048x256_S1024x256_1_0_0_1_n_n : DotDims S1024x2048 S2048x256 S1024x256 where
  lhsContracting := [1]
  rhsContracting := [0]
  lhsNonContracting := [0]
  rhsNonContracting := [1]
  lhsBatch := []
  rhsBatch := []
  wf := dot_S1024x2048_S2048x256_S1024x256_1_0_0_1_n_n_wf

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S256x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v10) S1x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v13) S1024x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8192x2048 : Shape := ⟨2, ![8192, 2048]⟩
abbrev S2048x2048 : Shape := ⟨2, ![2048, 2048]⟩
abbrev S2048 : Shape := ⟨1, ![2048]⟩
abbrev S_ : Shape := ⟨0, ![]⟩
abbrev S1x2048 : Shape := ⟨2, ![1, 2048]⟩
abbrev S8192 : Shape := ⟨1, ![8192]⟩
abbrev S8192x1 : Shape := ⟨2, ![8192, 1]⟩

abbrev nBuf : Space → Nat
  | .hbm => 38
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S2048x2048, .f32⟩
  | .hbm, ⟨3, _⟩ => ⟨S2048, .f32⟩
  | .hbm, ⟨4, _⟩ => ⟨S2048x2048, .f32⟩
  | .hbm, ⟨5, _⟩ => ⟨S_, .f32⟩
  | .hbm, ⟨6, _⟩ => ⟨S2048, .f32⟩
  | .hbm, ⟨7, _⟩ => ⟨S2048, .f32⟩
  | .hbm, ⟨8, _⟩ => ⟨S8192x2048, .f32⟩
  | .hbm, ⟨9, _⟩ => ⟨S1x2048, .f32⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S2048x2048, .f32⟩
  | .hbm, ⟨17, _⟩ => ⟨S_, .f32⟩
  | .hbm, ⟨18, _⟩ => ⟨S2048, .f32⟩
  | .hbm, ⟨19, _⟩ => ⟨S8192x2048, .f32⟩
  | .hbm, ⟨20, _⟩ => ⟨S1x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S_, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S_, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S2048, .f32⟩
  | .hbm, ⟨33, _⟩ => ⟨S1x2048, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩

abbrev nD : Nat := 1
abbrev τ : Topo := Topo.v7x

variable {F : FTy → Type} [FloatOps F]

class Facts₀ : Prop where
  reducesTo_S2048x2048_S2048_d1 : S2048x2048.ReducesTo [1] S2048
  h_S_ : 0 < S_.numel
  bcast_S2048_S1x2048_1 : S2048.BroadcastsInDim S1x2048 (![1] : Fin 1 → Fin S1x2048.rank)
  bcast_S1x2048_S8192x2048_0_1 : S1x2048.BroadcastsInDim S8192x2048 (![0, 1] : Fin 2 → Fin S8192x2048.rank)
  reducesTo_S8192x2048_S8192_d1 : S8192x2048.ReducesTo [1] S8192
  bcast_S8192_S8192x1_0 : S8192.BroadcastsInDim S8192x1 (![0] : Fin 1 → Fin S8192x1.rank)
  bcast_S8192x1_S8192x2048_0_1 : S8192x1.BroadcastsInDim S8192x2048 (![0, 1] : Fin 2 → Fin S8192x2048.rank)
  bcast_S_S8192x2048 : S_.BroadcastsInDim S8192x2048 (![] : Fin 0 → Fin S8192x2048.rank)
  dot_S8192x2048_S2048x2048_S8192x2048_1_1_0_0_n_n_wf : DotDims.WF S8192x2048 S2048x2048 S8192x2048 [1] [1] [0] [0] [] []

variable [Facts₀]

def dot_S8192x2048_S2048x2048_S8192x2048_1_1_0_0_n_n : DotDims S8192x2048 S2048x2048 S8192x2048 where
  lhsContracting := [1]
  rhsContracting := [1]
  lhsNonContracting := [0]
  rhsNonContracting := [0]
  lhsBatch := []
  rhsBatch := []
  wf := dot_S8192x2048_S2048x2048_S8192x2048_1_1_0_0_n_n_wf

class Facts : Prop extends Facts₀ where

variable [Facts]
-- ==== Proof.LibColumn.lean ====
/-
  Column layouts read at an index: a length-`a` vector as an `[a, 1]` column and back, and a column broadcast
  along the second axis. Row-major position of `(i, 0)` in `[a, 1]` is `i · 1 + 0 = i`, the position of `i` in `[a]`;
  a broadcast repeats the operand along each axis where the operand's extent is one.
-/
import Idealize.ShloMosaic.Lib.Pipeline.Value
import Idealize.ShloMosaic.Lib.ValueIdx

noncomputable section

namespace Cert.Column

open Idealize.ShloMosaic Idealize.ShloMosaic.ValueIdx

variable {α : Type}

/-- An `[a]` array cast to a column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[a, 1]` broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Column

end
-- ==== Proof.LibPlainDot.lean ====
/-
  A matrix product with ONE contracted axis, read at an output entry over the extended reals.

  For a product of an [A, K] array by a [K, B] array whose dimension numbers send output entry (p, c) and contraction
  position k to the operand entries (p, k) and (k, c), the accelerator's matmul into a zero accumulator and the host's
  dot_general are both the plain sum  Σ_k lhs[p, k] · rhs[k, c]  — no rounding and no order of summation is left at the
  exact instance. The four coordinate facts are taken as hypotheses, so that one statement serves every such record.
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

variable {A K B : Nat} {φ₁ φ₂ : FTy}

/-- The contraction sum re-indexed by the one contracted coordinate, the operand entries written out. -/
theorem contr_sum (d : DotDims ⟨2, ![A, K]⟩ ⟨2, ![K, B]⟩ ⟨2, ![A, B]⟩)
    (hr : d.contr.rank = 1) (hs : d.contr.size ⟨0, by omega⟩ = K)
    (hl0 : ∀ j q, (d.lhsIdx j q 0).val = (j 0).val) (hl1 : ∀ j q, (d.lhsIdx j q 1).val = (q ⟨0, by omega⟩).val)
    (hr0 : ∀ j q, (d.rhsIdx j q 0).val = (q ⟨0, by omega⟩).val) (hr1 : ∀ j q, (d.rhsIdx j q 1).val = (j 1).val)
    (lhs : FVec Ideal ⟨2, ![A, K]⟩ φ₁) (rhs : FVec Ideal ⟨2, ![K, B]⟩ φ₂) (p : Fin A) (c : Fin B) :
    (∑ q : d.contr.Idx, lhs (d.lhsIdx (ix2 p c) q) * rhs (d.rhsIdx (ix2 p c) q))
      = ∑ k : Fin K, lhs (ix2 p k) * rhs (ix2 k c) := by
  rw [← Equiv.sum_comp (contrEquiv1 d K hr hs).symm]
  refine Finset.sum_congr rfl fun k _ => ?_
  have hk := contrEquiv1_symm_val d K hr hs k
  have el : d.lhsIdx (ix2 p c) ((contrEquiv1 d K hr hs).symm k) = ix2 p k := funext fun a => Fin.ext (by
    match a with
    | ⟨0, _⟩ => exact hl0 _ _
    | ⟨1, _⟩ => exact (hl1 _ _).trans hk)
  have er : d.rhsIdx (ix2 p c) ((contrEquiv1 d K hr hs).symm k) = ix2 k c := funext fun a => Fin.ext (by
    match a with
    | ⟨0, _⟩ => exact (hr0 _ _).trans hk
    | ⟨1, _⟩ => exact hr1 _ _)
  rw [el, er]

/-- The matmul into the zero accumulator at entry (p, c) is Σ_k lhs[p, k] · rhs[k, c]. -/
theorem matmul_zero_apply (d : DotDims ⟨2, ![A, K]⟩ ⟨2, ![K, B]⟩ ⟨2, ![A, B]⟩) (prec : Option ContractPrecision)
    (hr : d.contr.rank = 1) (hs : d.contr.size ⟨0, by omega⟩ = K)
    (hl0 : ∀ j q, (d.lhsIdx j q 0).val = (j 0).val) (hl1 : ∀ j q, (d.lhsIdx j q 1).val = (q ⟨0, by omega⟩).val)
    (hr0 : ∀ j q, (d.rhsIdx j q 0).val = (q ⟨0, by omega⟩).val) (hr1 : ∀ j q, (d.rhsIdx j q 1).val = (j 1).val)
    (lhs : FVec Ideal ⟨2, ![A, K]⟩ φ₁) (rhs : FVec Ideal ⟨2, ![K, B]⟩ φ₂) (p : Fin A) (c : Fin B) :
    FloatOps.matmul d prec lhs rhs (constant (F := Ideal) ⟨2, ![A, B]⟩ .f32 0x00000000#32) (ix2 p c)
      = ∑ k : Fin K, lhs (ix2 p k) * rhs (ix2 k c) :=
  (Ideal.matmul_constant_zero_apply d prec lhs rhs (ix2 p c)).trans (contr_sum d hr hs hl0 hl1 hr0 hr1 lhs rhs p c)

/-- The host's dot_general at entry (p, c) is the same sum. -/
theorem dotGeneral_apply (d : DotDims ⟨2, ![A, K]⟩ ⟨2, ![K, B]⟩ ⟨2, ![A, B]⟩) (prec : Option ContractPrecision)
    (sched : HostSchedule)
    (hr : d.contr.rank = 1) (hs : d.contr.size ⟨0, by omega⟩ = K)
    (hl0 : ∀ j q, (d.lhsIdx j q 0).val = (j 0).val) (hl1 : ∀ j q, (d.lhsIdx j q 1).val = (q ⟨0, by omega⟩).val)
    (hr0 : ∀ j q, (d.rhsIdx j q 0).val = (q ⟨0, by omega⟩).val) (hr1 : ∀ j q, (d.rhsIdx j q 1).val = (j 1).val)
    (lhs : FVec Ideal ⟨2, ![A, K]⟩ φ₁) (rhs : FVec Ideal ⟨2, ![K, B]⟩ φ₂) (p : Fin A) (c : Fin B) :
    FloatOps.dotGeneral d prec sched lhs rhs (ix2 p c) = ∑ k : Fin K, lhs (ix2 p k) * rhs (ix2 k c) :=
  (Ideal.dotGeneral_apply d prec sched lhs rhs (ix2 p c)).trans (contr_sum d hr hs hl0 hl1 hr0 hr1 lhs rhs p c)

end Idealize.ShloMosaic.PlainDot

end
-- ==== Proof.LibRowOps.lean ====
/-
  Reductions along the last axis, at the ideal values, read at an index given by coordinates. In an `[R, C]` matrix the
  sum and the maximum along the second axis at row `p` are the sum and the fold of `max` over `k : Fin C` of the entries
  `(p, k)` — the reduced index `p` with the coordinate `k` inserted on the dropped axis is `(p, k)` (`lift_row`,
  `rowSum_apply`, `rowMax_apply`: a kernel's `vector.multi_reduction`). In an `[A, B, C]` array the host's maximum along
  the last axis at `(a, b)` is the fold of `max`, from the initial value, over `k : Fin C` of the entries `(a, b, k)`
  (`lift_last3`, `hostMax_last3`: a `stablehlo.reduce` with a maximum body). All are stated for any extents.
-/
import Idealize.ShloMosaic.PureOps.Ideal.Laws
import Idealize.ShloMosaic.Lib.ValueIdx

noncomputable section

namespace Cert.RowOps

open Idealize.ShloMosaic Idealize.ShloMosaic.ValueIdx

/-- Row `p` with the column `k` inserted is the index `(p, k)`. -/
theorem lift_row {R C : ℕ} (h : (⟨2, ![R, C]⟩ : Shape).Reduces [1] ⟨1, ![R]⟩) (p : Fin R) (k : Fin C) :
    h.lift (ix1 p) k = ix2 p k := by
  funext c
  apply Fin.ext
  match c with
  | ⟨0, _⟩ => rfl
  | ⟨1, _⟩ => rfl

/-- In a rank-3 array, `(a, b)` with the coordinate `k` inserted on the last axis is `(a, b, k)`. -/
theorem lift_last3 {A B C : ℕ} (h : (⟨3, ![A, B, C]⟩ : Shape).Reduces [2] ⟨2, ![A, B]⟩) (a : Fin A) (b : Fin B) (k : Fin C) :
    h.lift (ix2 a b) k = ix3 a b k := by
  funext c
  apply Fin.ext
  match c with
  | ⟨0, _⟩ => rfl
  | ⟨1, _⟩ => rfl
  | ⟨2, _⟩ => rfl

/-- The host's maximum along the last axis of a rank-3 array, at `(a, b)`: the fold of `max`, from the initial value, over
    `k` of the entries `(a, b, k)`. -/
theorem hostMax_last3 {A B C : ℕ} (x : (⟨3, ![A, B, C]⟩ : Shape).Idx → EReal) (init : (⟨0, ![]⟩ : Shape).Idx → EReal)
    (h' : (⟨3, ![A, B, C]⟩ : Shape).ReducesTo [2] ⟨2, ![A, B]⟩) (h : (⟨3, ![A, B, C]⟩ : Shape).Reduces [2] ⟨2, ![A, B]⟩)
    (hu : 0 < (⟨0, ![]⟩ : Shape).numel) (a : Fin A) (b : Fin B) :
    Host.reduce (FloatOps.maximumf (F := Ideal) (φ := .f32)) x init h' hu (ix2 a b)
      = (Finset.univ : Finset (Fin C)).fold max (init (Shape.Idx.first hu)) (fun k => x (ix3 a b k)) := by
  refine (Host.reduce_eq_fold_single (FloatOps.maximumf (F := Ideal) (φ := .f32)) x init h' h hu (ix2 a b)).trans ?_
  exact congrArg (Finset.fold max (init (Shape.Idx.first hu)) · (Finset.univ : Finset (Fin C)))
    (funext fun k => congrArg x (lift_last3 h a b k))

/-- A sum along the second axis, at row `p`: the sum over the columns of the entries of that row. -/
theorem rowSum_apply {R C : ℕ} (src : FVec Ideal ⟨2, ![R, C]⟩ .f32) (acc : BitVec 32)
    (h : (⟨2, ![R, C]⟩ : Shape).Reduces [1] ⟨1, ![R]⟩) (hφ : FKind.Formats .f32) (hacc : acc = FKind.add.neutral .f32 hφ)
    (p : Fin R) :
    multiReduction .add [1] ⟨1, ![R]⟩ src acc h hφ hacc (ix1 p) = ∑ k : Fin C, src (ix2 p k) := by
  refine (Ideal.multiReduction_add_single src acc h hφ hacc (ix1 p)).trans ?_
  exact Finset.sum_congr rfl fun k _ => congrArg src (lift_row h p k)

/-- A maximum along the second axis, at row `p`: the fold of `max`, from the accumulator's value, over the columns. -/
theorem rowMax_apply {R C : ℕ} (src : FVec Ideal ⟨2, ![R, C]⟩ .f32) (acc : BitVec 32)
    (h : (⟨2, ![R, C]⟩ : Shape).Reduces [1] ⟨1, ![R]⟩) (hφ : FKind.Formats .f32) (hacc : acc = FKind.maximumf.neutral .f32 hφ)
    (p : Fin R) :
    multiReduction .maximumf [1] ⟨1, ![R]⟩ src acc h hφ hacc (ix1 p)
      = (Finset.univ : Finset (Fin C)).fold max (Ideal.ofBits .f32 acc) (fun k => src (ix2 p k)) := by
  refine (Ideal.multiReduction_maximumf_single src acc h hφ hacc (ix1 p)).trans ?_
  exact congrArg (Finset.fold max (Ideal.ofBits .f32 acc) · (Finset.univ : Finset (Fin C)))
    (funext fun k => congrArg src (lift_row h p k))

end Cert.RowOps

end
-- ==== Proof.Payload.lean ====
/-
  The kernel body's stored value at an entry (p, q) of the [1024, 256] output block, as a function of the six loaded
  blocks: with xb the [1024, 2048] block of x, wb and cb the [256, 2048] blocks of w and c, and three [1, 256] rows
  (bias, squared norms of c, and the quotient (−1) / s²),

      (Σ_k xb[p,k]·wb[q,k] + bias[0,q]) · exp( max((Σ_k xb[p,k]² + csq[0,q]) − 2·Σ_k xb[p,k]·cb[q,k], 0) · nis[0,q] ).

  The two matrix products contract the second axis of the x block with the FIRST axis of the transposed weight block,
  so entry (k, q) of the transpose is entry (q, k) of the block; a change of float format is the identity on extended
  reals; the row sum of squares is cast to a column and broadcast across the columns; each [1, 256] row is broadcast
  down the rows.
-/
import proofs.«149486_j64647847739876_2_alg».proof.Proof.Gen.KernelIdeal.Skeleton
import proofs.«149486_j64647847739876_2_alg».proof.Proof.LibColumn
import proofs.«149486_j64647847739876_2_alg».proof.Proof.LibPlainDot
import proofs.«149486_j64647847739876_2_alg».proof.Proof.LibRowOps
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Fgn.Payload

open Cert.KernelIdeal Idealize.ShloMosaic Idealize.ShloMosaic.ValueIdx
open Cert.KernelIdeal.Facts₀

/-! ## The product's operand coordinates -/

abbrev D : DotDims S1024x2048 S2048x256 S1024x256 := dot_S1024x2048_S2048x256_S1024x256_1_0_0_1_n_n

theorem lhs0 (j : S1024x256.Idx) (q : D.contr.Idx) : (D.lhsIdx j q 0).val = (j 0).val := by
  unfold DotDims.lhsIdx
  rw [dif_neg (show ¬(0 : Fin S1024x2048.rank) ∈ D.lhsBatch by decide), dif_pos (show (0 : Fin S1024x2048.rank) ∈ D.lhsNonContracting by decide)]
  rfl
theorem lhs1 (j : S1024x256.Idx) (q : D.contr.Idx) : (D.lhsIdx j q 1).val = (q ⟨0, by decide⟩).val :=
  D.lhsIdx_val_of_single rfl j q
theorem rhs0 (j : S1024x256.Idx) (q : D.contr.Idx) : (D.rhsIdx j q 0).val = (q ⟨0, by decide⟩).val :=
  D.rhsIdx_val_of_single rfl j q
theorem rhs1 (j : S1024x256.Idx) (q : D.contr.Idx) : (D.rhsIdx j q 1).val = (j 1).val := by
  unfold DotDims.rhsIdx
  rw [dif_neg (show ¬(1 : Fin S2048x256.rank) ∈ D.rhsBatch by decide), dif_pos (show (1 : Fin S2048x256.rank) ∈ D.rhsNonContracting by decide)]
  rfl

/-! ## The pieces, each over variables -/

/-- The product of the x block, rounded to the narrow format, with the transposed block y: Σ_k x[p,k]·y[q,k]. -/
theorem prod_apply (x : FVec Ideal S1024x2048 .f32) (y : FVec Ideal S256x2048 .bf16) (p : Fin 1024) (q : Fin 256) :
    matmul D none (truncf .bf16 x bitsLt_bf16_f32)
        (transpose S2048x256 [1, 0] (shapeCast S256x2048 y shapeCasts_S256x2048_S256x2048) transposes_S256x2048_p1_0_S2048x256)
        (constant S1024x256 .f32 0x00000000#32) (ix2 p q)
      = ∑ k : Fin 2048, x (ix2 p k) * y (ix2 q k) := by
  refine (PlainDot.matmul_zero_apply D none rfl rfl lhs0 lhs1 rhs0 rhs1 _ _ p q).trans ?_
  refine Finset.sum_congr rfl fun k _ => ?_
  rw [transpose_ix2_apply, shapeCast_self]
  rfl

/-- A [1, 256] row broadcast down the 1024 rows, at (p, q): the row's entry q. -/
theorem row_apply (v : FVec Ideal S1x256 .f32) (p : Fin 1024) (q : Fin 256) :
    broadcastTo S1024x256 (shapeCast S1x256 v shapeCasts_S1x256_S1x256) broadcasts_S1x256_S1024x256 (ix2 p q)
      = v (ix2 (0 : Fin 1) q) := by
  rw [broadcastTo_1b_ab_apply, shapeCast_self]

/-- The row sums of squares of the x block, as a column broadcast across the 256 columns, at (p, q): Σ_k x[p,k]². -/
theorem sumsq_apply (x : FVec Ideal S1024x2048 .f32) (p : Fin 1024) (q : Fin 256) :
    broadcastTo S1024x256
        (shapeCast S1024x1 (multiReduction .add [1] S1024 (mulf x x) 0x00000000#32 reduces_S1024x2048_S1024 (.inl rfl) rfl)
          shapeCasts_S1024_S1024x1) broadcasts_S1024x1_S1024x256 (ix2 p q)
      = ∑ k : Fin 2048, x (ix2 p k) * x (ix2 p k) := by
  refine (Cert.Column.broadcastTo_a1_ab_apply _ broadcasts_S1024x1_S1024x256 p q).trans ?_
  refine (Cert.Column.shapeCast_a_a1_apply _ shapeCasts_S1024_S1024x1 p (0 : Fin 1)).trans ?_
  exact Cert.RowOps.rowSum_apply (mulf x x) 0x00000000#32 reduces_S1024x2048_S1024 (.inl rfl) rfl p

/-! ## The stored value -/

/-- The body's one stored value at (p, q). -/
theorem pay_apply (x0 : Vec Ideal S1024x2048 .f32) (x1 x2 : Vec Ideal S256x2048 .bf16) (x3 x4 x5 : Vec Ideal S1x256 .f32)
    (p : Fin 1024) (q : Fin 256) :
    Gen.k0_pay1 (F := Ideal) x0 x1 x2 x3 x4 x5 (ix2 p q)
      = ((∑ k : Fin 2048, x0 (ix2 p k) * x1 (ix2 q k)) + x3 (ix2 (0 : Fin 1) q))
        * Ideal.exp (max (((∑ k : Fin 2048, x0 (ix2 p k) * x0 (ix2 p k)) + x4 (ix2 (0 : Fin 1) q))
              - Ideal.ofBits .f32 0x40000000#32 * (∑ k : Fin 2048, x0 (ix2 p k) * x2 (ix2 q k)))
            (Ideal.ofBits .f32 0x00000000#32) * x5 (ix2 (0 : Fin 1) q)) := by
  unfold Gen.k0_pay1
  dsimp only
  exact congrArg₂ (· * ·) (congrArg₂ (· + ·) (prod_apply x0 x1 p q) (row_apply x3 p q))
    (congrArg Ideal.exp (congrArg₂ (· * ·)
      (congrArg₂ max (congrArg₂ (· - ·) (congrArg₂ (· + ·) (sumsq_apply x0 p q) (row_apply x4 p q))
        (congrArg (Ideal.ofBits .f32 0x40000000#32 * ·) (prod_apply x0 x2 p q))) rfl)
      (row_apply x5 p q)))

end Cert.Fgn.Payload

end
-- ==== Proof.Spec.lean ====
/-
  The two programs' result as functions of the four argument arrays, entry by entry, over the extended reals.

  With x : [8192, 2048], w, c : [2048, 2048] and s : [2048], both programs compute at (b, o)

      lin(b, o) · exp(envelope(b, o)),    lin(b, o) = Σ_k x[b,k]·w[o,k] − Σ_k w[o,k]·c[o,k],

  where, with d(b, o) = max(Σ_k x[b,k]² + Σ_k c[o,k]² − 2·Σ_k x[b,k]·c[o,k], 0) the clamped squared distance of row b of x
  to row o of c, one program multiplies d by the precomputed quotient (−1) / s[o]² and the other divides −d by s[o]².
  The float words 0, 2 and −1 are kept as the patterns the programs print.
-/
import Idealize.ShloMosaic.PureOps.Ideal
import Idealize.ShloMosaic.Lib.ValueIdx

noncomputable section

open scoped BigOperators

namespace Cert.Fgn

open Idealize.ShloMosaic Idealize.ShloMosaic.ValueIdx

/-- The shapes of the arguments: the batch of inputs, the weight and centre matrices, the widths. -/
abbrev SX : Shape := ⟨2, ![8192, 2048]⟩
abbrev SW : Shape := ⟨2, ![2048, 2048]⟩
abbrev SS : Shape := ⟨1, ![2048]⟩

/-- The f32 words both programs print: 0.0, 2.0 and −1.0. -/
def zero32 : EReal := Ideal.ofBits .f32 0x00000000#32
def two32 : EReal := Ideal.ofBits .f32 0x40000000#32
def negOne32 : EReal := Ideal.ofBits .f32 0xBF800000#32

/-- Row b of x against row o of a [2048, 2048] matrix: Σ_k x[b,k]·a[o,k]. -/
def rowDot (X : SX.Idx → EReal) (A : SW.Idx → EReal) (b : Fin 8192) (o : Fin 2048) : EReal :=
  ∑ k : Fin 2048, X (ix2 b k) * A (ix2 o k)

/-- The bias of output o: −(0 + Σ_k w[o,k]·c[o,k]). -/
def bias (W C : SW.Idx → EReal) (o : Fin 2048) : EReal :=
  -(zero32 + ∑ k : Fin 2048, W (ix2 o k) * C (ix2 o k))

/-- The linear term: x[b,:]·w[o,:] + bias[o]. -/
def lin (X : SX.Idx → EReal) (W C : SW.Idx → EReal) (b : Fin 8192) (o : Fin 2048) : EReal :=
  rowDot X W b o + bias W C o

/-- The squared norm of row o of c, summed from the printed zero. -/
def csq (C : SW.Idx → EReal) (o : Fin 2048) : EReal :=
  zero32 + ∑ k : Fin 2048, C (ix2 o k) * C (ix2 o k)

/-- The squared norm of row b of x, as a bare sum. -/
def xsq (X : SX.Idx → EReal) (b : Fin 8192) : EReal :=
  ∑ k : Fin 2048, X (ix2 b k) * X (ix2 b k)

/-- The clamped expansion of the squared distance, from a given value `n` of the squared norm of the row of x. -/
def dist (n : EReal) (X : SX.Idx → EReal) (C : SW.Idx → EReal) (b : Fin 8192) (o : Fin 2048) : EReal :=
  max ((n + csq C o) - two32 * rowDot X C b o) zero32

/-- The width of output o squared. -/
def sig2 (S : SS.Idx → EReal) (o : Fin 2048) : EReal := S (ix1 o) * S (ix1 o)

/-- Entry (b, o) when the envelope's exponent is the distance TIMES the precomputed (−1) / s². -/
def outMul (X : SX.Idx → EReal) (W C : SW.Idx → EReal) (S : SS.Idx → EReal) (b : Fin 8192) (o : Fin 2048) : EReal :=
  lin X W C b o * Ideal.exp (dist (xsq X b) X C b o * Ideal.div negOne32 (sig2 S o))

/-- Entry (b, o) when the envelope's exponent is the NEGATED distance DIVIDED by s². -/
def outDiv (X : SX.Idx → EReal) (W C : SW.Idx → EReal) (S : SS.Idx → EReal) (b : Fin 8192) (o : Fin 2048) : EReal :=
  lin X W C b o * Ideal.exp (Ideal.div (-(dist (zero32 + xsq X b) X C b o)) (sig2 S o))

end Cert.Fgn

end
-- ==== Proof.HostPrefix.lean ====
/-
  What the host operations before the kernel leave in the five arrays the kernel's windows stage, as functions of the
  arguments, entry by entry: the bias row −(0 + Σ_k w[o,k]·c[o,k]), the row of squared norms 0 + Σ_k c[o,k]², the row
  of quotients (−1) / (s[o]·s[o]) — each a [2048] vector reshaped to [1, 2048], read at (0, o) — and the two matrices
  w and c converted to the narrow float format, which on extended reals is the identity.
-/
import proofs.«149486_j64647847739876_2_alg».proof.Proof.Gen.KernelIdeal.Launch
import proofs.«149486_j64647847739876_2_alg».proof.Proof.LibRowOps
import proofs.«149486_j64647847739876_2_alg».proof.Proof.Spec
import Idealize.ShloMosaic.Lib.StableHlo.Run
import Idealize.ShloMosaic.PureOps.Ideal.Laws
import Idealize.ShloMosaic.Lib.ValueIdx
import Idealize.ShloMosaic.Lib.ValueLayout

noncomputable section

open scoped BigOperators

namespace Cert.Fgn.HostPrefix

open Cert.KernelIdeal Idealize.ShloMosaic Idealize.ShloMosaic.TcCoe Idealize.SL.Sem Idealize.ShloMosaic.StableHlo
open Idealize.ShloMosaic.ValueIdx Cert.KernelIdeal.Facts₀ Cert.Fgn

/-- The host's sum along the second axis of a [2048, 2048] matrix from the printed zero, at row o. -/
theorem hostRowSum (y : FVec Ideal S2048x2048 .f32) (o : Fin 2048) :
    Host.reduceAdd (F := Ideal) y (constant (F := Ideal) S_ .f32 0x00000000#32) reducesTo_S2048x2048_S2048_d1 h_S_ (ix1 o)
      = zero32 + ∑ k : Fin 2048, y (ix2 o k) := by
  simp only [Host.reduceAdd, Ideal.hostReduceAdd_def]
  have hR : S2048x2048.Reduces [1] S2048 := by decide
  refine (Ideal.hostReduceAdd_single reducesTo_S2048x2048_S2048_d1 hR y _ (ix1 o)).trans ?_
  exact congrArg (zero32 + ·) (Finset.sum_congr rfl fun k _ => congrArg y (Cert.RowOps.lift_row hR o k))

variable (Vl : Valuation τ sig (Elt Ideal))

/-! ## The arrays after the sixteen host operations, whole -/

theorem after_v3 :
    (StableHlo.after (Gen.hostOps0 (F := Ideal)) Vl (Proc.devRef .tc main_v3) : S1x2048.Idx → EReal)
      = shapeCast S1x2048 (Host.negf (F := Ideal) (Host.reduceAdd (F := Ideal)
          (mulf (Vl (Proc.devRef .tc main_arg1) : FVec Ideal S2048x2048 .f32) (Vl (Proc.devRef .tc main_arg2)))
          (constant (F := Ideal) S_ .f32 0x00000000#32) reducesTo_S2048x2048_S2048_d1 h_S_)) shapeCasts_S2048_S1x2048 := by
  after_results; rfl

theorem after_v6 :
    (StableHlo.after (Gen.hostOps0 (F := Ideal)) Vl (Proc.devRef .tc main_v6) : S1x2048.Idx → EReal)
      = shapeCast S1x2048 (Host.reduceAdd (F := Ideal)
          (mulf (Vl (Proc.devRef .tc main_arg2) : FVec Ideal S2048x2048 .f32) (Vl (Proc.devRef .tc main_arg2)))
          (constant (F := Ideal) S_ .f32 0x00000000#32) reducesTo_S2048x2048_S2048_d1 h_S_) shapeCasts_S2048_S1x2048 := by
  after_results; rfl

theorem after_v10 :
    (StableHlo.after (Gen.hostOps0 (F := Ideal)) Vl (Proc.devRef .tc main_v10) : S1x2048.Idx → EReal)
      = shapeCast S1x2048 (Host.divf (F := Ideal)
          (broadcastInDim S2048 ![] bcast_S_S2048 (constant (F := Ideal) S_ .f32 0xBF800000#32))
          (mulf (Vl (Proc.devRef .tc main_arg3) : FVec Ideal S2048 .f32) (Vl (Proc.devRef .tc main_arg3)))) shapeCasts_S2048_S1x2048 := by
  after_results; rfl

theorem after_v11 :
    (StableHlo.after (Gen.hostOps0 (F := Ideal)) Vl (Proc.devRef .tc main_v11) : S2048x2048.Idx → EReal)
      = (Vl (Proc.devRef .tc main_arg1) : S2048x2048.Idx → EReal) := by
  after_results; rfl

theorem after_v12 :
    (StableHlo.after (Gen.hostOps0 (F := Ideal)) Vl (Proc.devRef .tc main_v12) : S2048x2048.Idx → EReal)
      = (Vl (Proc.devRef .tc main_arg2) : S2048x2048.Idx → EReal) := by
  after_results; rfl

/-! ## The three rows read at (0, o) -/

theorem v3_apply (o : Fin 2048) :
    (StableHlo.after (Gen.hostOps0 (F := Ideal)) Vl (Proc.devRef .tc main_v3) : S1x2048.Idx → EReal) (ix2 (0 : Fin 1) o)
      = bias (Vl (Proc.devRef .tc main_arg1)) (Vl (Proc.devRef .tc main_arg2)) o := by
  rw [after_v3]
  refine (shapeCast_a_1a_apply _ shapeCasts_S2048_S1x2048 (0 : Fin 1) o).trans ?_
  show -(Host.reduceAdd (F := Ideal) _ _ reducesTo_S2048x2048_S2048_d1 h_S_ (ix1 o)) = _
  rw [hostRowSum]
  rfl

theorem v6_apply (o : Fin 2048) :
    (StableHlo.after (Gen.hostOps0 (F := Ideal)) Vl (Proc.devRef .tc main_v6) : S1x2048.Idx → EReal) (ix2 (0 : Fin 1) o)
      = csq (Vl (Proc.devRef .tc main_arg2)) o := by
  rw [after_v6]
  refine (shapeCast_a_1a_apply _ shapeCasts_S2048_S1x2048 (0 : Fin 1) o).trans ?_
  rw [hostRowSum]
  rfl

theorem v10_apply (o : Fin 2048) :
    (StableHlo.after (Gen.hostOps0 (F := Ideal)) Vl (Proc.devRef .tc main_v10) : S1x2048.Idx → EReal) (ix2 (0 : Fin 1) o)
      = Ideal.div negOne32 (sig2 (Vl (Proc.devRef .tc main_arg3)) o) := by
  rw [after_v10]
  refine (shapeCast_a_1a_apply _ shapeCasts_S2048_S1x2048 (0 : Fin 1) o).trans ?_
  rfl

end Cert.Fgn.HostPrefix

end
-- ==== Proof.Blocks.lean ====
/-
  From the kernel's blocks to its result array. The grid is 8 × 8: point (i, j) takes rows 1024·i … 1024·i + 1023 of x,
  rows 256·j … 256·j + 255 of w and of c, and columns 256·j … of the three [1, 2048] rows, and writes the
  [1024, 256] block (i, j) of the result. Entry (p, q) of what it writes is the body's stored value of those blocks,
  which is the specification's `outMul` at row 1024·i + p and column 256·j + q of the arguments: every block is read
  where the output's rectangle says, a block's coordinate being always index × size + the coordinate inside the block.
  The 64 blocks cover the [8192, 2048] array (the point covering (r, s) is (r / 1024, s / 256)), so the array ends
  holding `outMul` everywhere.
-/
import proofs.«149486_j64647847739876_2_alg».proof.Proof.Gen.KernelIdeal.Value
import proofs.«149486_j64647847739876_2_alg».proof.Proof.Payload
import proofs.«149486_j64647847739876_2_alg».proof.Proof.HostPrefix
import proofs.«149486_j64647847739876_2_alg».proof.Proof.Spec
import Idealize.ShloMosaic.Lib.Pipeline.Value
import Idealize.ShloMosaic.Lib.ValueIdx

noncomputable section

open scoped BigOperators

namespace Cert.Fgn.Blocks

open Cert.KernelIdeal Cert.KernelIdeal.Gen Idealize.ShloMosaic Idealize.ShloMosaic.TcCoe Idealize.SL.Sem
open Idealize.ShloMosaic.Pipeline (Dat)
open Idealize.ShloMosaic.ValueIdx Cert.Fgn

variable (m : (ℓ : Loc nD τ sig) → Buf (Elt Ideal) ℓ) (ρ : Dev nD → PrngReg)

theorem hz : (![0, 0] : Fin 2 → Nat) = fun _ => 0 := funext fun a => by fin_cases a <;> rfl

/-- The result array as one function of the argument arrays. -/
def G (c : Dev nD) : S8192x2048.Idx → EReal := fun i =>
  outMul (m ((c : Thread nD τ).loc main_arg0)) (m ((c : Thread nD τ).loc main_arg1)) (m ((c : Thread nD τ).loc main_arg2))
    (m ((c : Thread nD τ).loc main_arg3)) (i 0) (i 1)

/-- The printed index maps over the 64 points: the x window follows the output's row block, the w and c windows and
    the three rows follow its column block, and both block indices are below 8. -/
theorem idx_facts : ∀ t : Fin cfg0.N,
    win0_0.index t (0 : Fin 2) = win0_6.index t (0 : Fin 2) ∧ win0_0.index t (1 : Fin 2) = 0
    ∧ win0_1.index t (0 : Fin 2) = win0_6.index t (1 : Fin 2) ∧ win0_1.index t (1 : Fin 2) = 0
    ∧ win0_2.index t (0 : Fin 2) = win0_6.index t (1 : Fin 2) ∧ win0_2.index t (1 : Fin 2) = 0
    ∧ win0_3.index t (0 : Fin 2) = 0 ∧ win0_3.index t (1 : Fin 2) = win0_6.index t (1 : Fin 2)
    ∧ win0_4.index t (0 : Fin 2) = 0 ∧ win0_4.index t (1 : Fin 2) = win0_6.index t (1 : Fin 2)
    ∧ win0_5.index t (0 : Fin 2) = 0 ∧ win0_5.index t (1 : Fin 2) = win0_6.index t (1 : Fin 2)
    ∧ win0_6.index t (0 : Fin 2) ≤ 7 ∧ win0_6.index t (1 : Fin 2) ≤ 7 :=
  (by decide +kernel : ∀ t : Fin grid0.N, _)

/-- Every block of the 8 × 8 tiling is some point's. -/
theorem idx_onto : ∀ (q0 q1 : Fin 8), ∃ t : Fin cfg0.N, win0_6.index t = ![q0.val, q1.val] :=
  (by decide +kernel : ∀ (q0 q1 : Fin 8), ∃ t : Fin grid0.N, win0_6.index t = ![q0.val, q1.val])

/-! ## Each input block read where the output's rectangle says -/

/-- The x block at a point: rows of x from the point's row block. -/
theorem xblk_apply (c : Dev nD) (t : Fin cfg0.N) (p : Fin 1024) (k : Fin 2048) (b : Fin 8192)
    (hb : b.val = win0_6.index t (0 : Fin 2) * 1024 + p.val) :
    (iblk m c 0 t : Vec Ideal S1024x2048 .f32) (ix2 p k) = m ((c : Thread nD τ).loc main_arg0) (ix2 b k) := by
  obtain ⟨e0, e1, -⟩ := idx_facts t
  unfold iblk
  show V m c main_arg0 (((cfg0.win 0).blk t).view.emb (ix2 p k)) = _
  rw [V_main_arg0]
  refine congrArg _ (funext fun a => Fin.ext ?_)
  match a with
  | ⟨0, _⟩ => show win0_0.index t (0 : Fin 2) * 1024 + 1 * p.val = b.val; omega
  | ⟨1, _⟩ => show win0_0.index t (1 : Fin 2) * 2048 + 1 * k.val = k.val; omega

/-- The w block at a point: rows of w from the point's column block (the narrow-format copy holds the same reals). -/
theorem wblk_apply (c : Dev nD) (t : Fin cfg0.N) (q : Fin 256) (k : Fin 2048) (o : Fin 2048)
    (ho : o.val = win0_6.index t (1 : Fin 2) * 256 + q.val) :
    (iblk m c 1 t : Vec Ideal S256x2048 .bf16) (ix2 q k) = m ((c : Thread nD τ).loc main_arg1) (ix2 o k) := by
  obtain ⟨-, -, e0, e1, -⟩ := idx_facts t
  unfold iblk
  show (StableHlo.after (hostOps0 (F := Ideal)) (fun b => m (c, b)) (Proc.devRef .tc main_v11) : S2048x2048.Idx → EReal)
      (((cfg0.win 1).blk t).view.emb (ix2 q k)) = _
  rw [HostPrefix.after_v11]
  refine congrArg _ (funext fun a => Fin.ext ?_)
  match a with
  | ⟨0, _⟩ => show win0_1.index t (0 : Fin 2) * 256 + 1 * q.val = o.val; omega
  | ⟨1, _⟩ => show win0_1.index t (1 : Fin 2) * 2048 + 1 * k.val = k.val; omega

/-- The c block at a point, likewise. -/
theorem cblk_apply (c : Dev nD) (t : Fin cfg0.N) (q : Fin 256) (k : Fin 2048) (o : Fin 2048)
    (ho : o.val = win0_6.index t (1 : Fin 2) * 256 + q.val) :
    (iblk m c 2 t : Vec Ideal S256x2048 .bf16) (ix2 q k) = m ((c : Thread nD τ).loc main_arg2) (ix2 o k) := by
  obtain ⟨-, -, -, -, e0, e1, -⟩ := idx_facts t
  unfold iblk
  show (StableHlo.after (hostOps0 (F := Ideal)) (fun b => m (c, b)) (Proc.devRef .tc main_v12) : S2048x2048.Idx → EReal)
      (((cfg0.win 2).blk t).view.emb (ix2 q k)) = _
  rw [HostPrefix.after_v12]
  refine congrArg _ (funext fun a => Fin.ext ?_)
  match a with
  | ⟨0, _⟩ => show win0_2.index t (0 : Fin 2) * 256 + 1 * q.val = o.val; omega
  | ⟨1, _⟩ => show win0_2.index t (1 : Fin 2) * 2048 + 1 * k.val = k.val; omega

/-- Where entry (0, q) of a [1, 256] block of a [1, 2048] row sits: at (0, o). -/
theorem row_emb (w : Fin cfg0.W) (t : Fin cfg0.N) (q : Fin 256) (o : Fin 2048) (i0 i1 : Nat)
    (h0 : i0 * 1 + 1 * 0 = 0) (h1 : i1 * 256 + 1 * q.val = o.val) (y : S1x2048.Idx)
    (hy0 : (y 0).val = i0 * 1 + 1 * 0) (hy1 : (y 1).val = i1 * 256 + 1 * q.val) : y = ix2 (0 : Fin 1) o :=
  funext fun a => Fin.ext (by
    match a with
    | ⟨0, _⟩ => show (y 0).val = 0; omega
    | ⟨1, _⟩ => show (y 1).val = o.val; omega)

/-- The bias block at a point. -/
theorem biasblk_apply (c : Dev nD) (t : Fin cfg0.N) (q : Fin 256) (o : Fin 2048)
    (ho : o.val = win0_6.index t (1 : Fin 2) * 256 + q.val) :
    (iblk m c 3 t : Vec Ideal S1x256 .f32) (ix2 (0 : Fin 1) q)
      = bias (m ((c : Thread nD τ).loc main_arg1)) (m ((c : Thread nD τ).loc main_arg2)) o := by
  obtain ⟨-, -, -, -, -, -, e0, e1, -⟩ := idx_facts t
  unfold iblk
  show (StableHlo.after (hostOps0 (F := Ideal)) (fun b => m (c, b)) (Proc.devRef .tc main_v3) : S1x2048.Idx → EReal)
      (((cfg0.win 3).blk t).view.emb (ix2 (0 : Fin 1) q)) = _
  rw [row_emb 3 t q o (win0_3.index t (0 : Fin 2)) (win0_3.index t (1 : Fin 2)) (by omega) (by omega)
    (((cfg0.win 3).blk t).view.emb (ix2 (0 : Fin 1) q)) rfl rfl]
  exact HostPrefix.v3_apply (fun b => m (c, b)) o

/-- The block of squared norms of c at a point. -/
theorem csqblk_apply (c : Dev nD) (t : Fin cfg0.N) (q : Fin 256) (o : Fin 2048)
    (ho : o.val = win0_6.index t (1 : Fin 2) * 256 + q.val) :
    (iblk m c 4 t : Vec Ideal S1x256 .f32) (ix2 (0 : Fin 1) q) = csq (m ((c : Thread nD τ).loc main_arg2)) o := by
  obtain ⟨-, -, -, -, -, -, -, -, e0, e1, -⟩ := idx_facts t
  unfold iblk
  show (StableHlo.after (hostOps0 (F := Ideal)) (fun b => m (c, b)) (Proc.devRef .tc main_v6) : S1x2048.Idx → EReal)
      (((cfg0.win 4).blk t).view.emb (ix2 (0 : Fin 1) q)) = _
  rw [row_emb 4 t q o (win0_4.index t (0 : Fin 2)) (win0_4.index t (1 : Fin 2)) (by omega) (by omega)
    (((cfg0.win 4).blk t).view.emb (ix2 (0 : Fin 1) q)) rfl rfl]
  exact HostPrefix.v6_apply (fun b => m (c, b)) o

/-- The block of quotients (−1) / s² at a point. -/
theorem nisblk_apply (c : Dev nD) (t : Fin cfg0.N) (q : Fin 256) (o : Fin 2048)
    (ho : o.val = win0_6.index t (1 : Fin 2) * 256 + q.val) :
    (iblk m c 5 t : Vec Ideal S1x256 .f32) (ix2 (0 : Fin 1) q)
      = Ideal.div negOne32 (sig2 (m ((c : Thread nD τ).loc main_arg3)) o) := by
  obtain ⟨-, -, -, -, -, -, -, -, -, -, e0, e1, -⟩ := idx_facts t
  unfold iblk
  show (StableHlo.after (hostOps0 (F := Ideal)) (fun b => m (c, b)) (Proc.devRef .tc main_v10) : S1x2048.Idx → EReal)
      (((cfg0.win 5).blk t).view.emb (ix2 (0 : Fin 1) q)) = _
  rw [row_emb 5 t q o (win0_5.index t (0 : Fin 2)) (win0_5.index t (1 : Fin 2)) (by omega) (by omega)
    (((cfg0.win 5).blk t).view.emb (ix2 (0 : Fin 1) q)) rfl rfl]
  exact HostPrefix.v10_apply (fun b => m (c, b)) o

/-! ## What a point writes, entry by entry -/

/-- Entry (p, q) of what point t stores is `outMul` at row b = 1024·i + p and column o = 256·j + q. -/
theorem point_apply (c : Dev nD) (t : Fin cfg0.N) (p : Fin 1024) (q : Fin 256) (b : Fin 8192) (o : Fin 2048)
    (hb : b.val = win0_6.index t (0 : Fin 2) * 1024 + p.val) (ho : o.val = win0_6.index t (1 : Fin 2) * 256 + q.val) :
    k0_pay1 (F := Ideal) (iblk m c 0 t) (iblk m c 1 t) (iblk m c 2 t) (iblk m c 3 t) (iblk m c 4 t) (iblk m c 5 t) (ix2 p q)
      = outMul (m ((c : Thread nD τ).loc main_arg0)) (m ((c : Thread nD τ).loc main_arg1)) (m ((c : Thread nD τ).loc main_arg2))
          (m ((c : Thread nD τ).loc main_arg3)) b o := by
  refine (Payload.pay_apply (iblk m c 0 t) (iblk m c 1 t) (iblk m c 2 t) (iblk m c 3 t) (iblk m c 4 t) (iblk m c 5 t) p q).trans ?_
  rw [biasblk_apply m c t q o ho, csqblk_apply m c t q o ho, nisblk_apply m c t q o ho]
  simp only [xblk_apply m c t p _ b hb, wblk_apply m c t q _ o ho, cblk_apply m c t q _ o ho]
  rfl

/-! ## The write-back, the cover, the array -/

/-- What point t writes back is block t of `G`. -/
theorem flushed_eq (c : Dev nD) (t : Fin cfg0.N) :
    (dats m 0 c).flushed 6 t = ((cfg0.win 6).blk t).view.read (Elt Ideal) (G m c) := by
  rw [Cert.KernelIdeal.Value.flushed6]
  unfold out0_6
  rw [View.canon_unit_zero hz]
  simp only [View.ld_unit_zero (S := S1024x2048) hz, View.ld_unit_zero (S := S256x2048) hz, View.ld_unit_zero (S := S1x256) hz]
  funext j
  show k0_pay1 (F := Ideal) (iblk m c 0 t) (iblk m c 1 t) (iblk m c 2 t) (iblk m c 3 t) (iblk m c 4 t) (iblk m c 5 t)
      (j : S1024x256.Idx) = G m c (((cfg0.win 6).blk t).view.emb j)
  refine (congrArg (k0_pay1 (F := Ideal) (iblk m c 0 t) (iblk m c 1 t) (iblk m c 2 t) (iblk m c 3 t) (iblk m c 4 t) (iblk m c 5 t))
    (eq_ix2 (j : S1024x256.Idx))).trans ?_
  refine point_apply m c t _ _ _ _ ?_ ?_
  · show win0_6.index t (0 : Fin 2) * 1024 + 1 * ((j : S1024x256.Idx) 0).val = _; omega
  · show win0_6.index t (1 : Fin 2) * 256 + 1 * ((j : S1024x256.Idx) 1).val = _; omega

/-- An index of the array is in point t's block iff each coordinate is in the block's range on its axis. -/
theorem mem_blk (t : Fin cfg0.N) (i : S8192x2048.Idx) :
    i ∈ ((cfg0.win 6).blk t).view.set ↔ ∀ a : Fin 2, win0_6.index t a * S1024x256.size a ≤ (i a).val ∧ (i a).val < win0_6.index t a * S1024x256.size a + S1024x256.size a := by
  show i ∈ ((View.whole main_v13).slice (win0_6.rect t)).set ↔ _
  rw [View.set_slice_whole, Rect.mem_set_unit]
  exact Iff.rfl

/-- The blocks cover the array: (r, s) is in the block of the point with block indices (r / 1024, s / 256). -/
theorem cover (i : S8192x2048.Idx) : ∃ t : Fin cfg0.N, (cfg0.win 6).flush t = true ∧ i ∈ ((cfg0.win 6).blk t).view.set := by
  have hi0 : (i 0).val < 8192 := (i 0).isLt
  have hi1 : (i 1).val < 2048 := (i 1).isLt
  obtain ⟨t, ht⟩ := idx_onto ⟨(i 0).val / 1024, by omega⟩ ⟨(i 1).val / 256, by omega⟩
  have q0 : win0_6.index t (0 : Fin 2) = (i 0).val / 1024 := congrFun ht 0
  have q1 : win0_6.index t (1 : Fin 2) = (i 1).val / 256 := congrFun ht 1
  refine ⟨t, flush0_6 t, ?_⟩
  rw [mem_blk]
  intro a
  match a with
  | ⟨0, _⟩ => show win0_6.index t (0 : Fin 2) * 1024 ≤ (i 0).val ∧ (i 0).val < win0_6.index t (0 : Fin 2) * 1024 + 1024; omega
  | ⟨1, _⟩ => show win0_6.index t (1 : Fin 2) * 256 ≤ (i 1).val ∧ (i 1).val < win0_6.index t (1 : Fin 2) * 256 + 256; omega

/-- The result array after the run is `G`. -/
theorem final (c : Dev nD) : (dats m 0 c).arrAt 6 cfg0.N = G m c :=
  (dats m 0 c).arrAt_eq_of_cover 6 (G m c) (fun t _ => flushed_eq m c t) cover

/-- The kernel's run, read: the result array at `G` of the arguments, the arguments unchanged. -/
theorem run : θ_run defs (onTc (τ := τ) (main (F := Ideal))) ⟨m, fun _ => 0, ρ⟩ fun r => ∀ c : Dev nD,
      r.2.mem ((c : Thread nD τ).loc main_v13) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Cert.KernelIdeal.Value.run_blocks m ρ)

end Cert.Fgn.Blocks

end
-- ==== Proof.RefSide.lean ====
/-
  The reference program's result, read entry by entry: at (b, o) it is the linear term times the exponential of the
  negated clamped distance divided by the squared width — the specification's `outDiv`. Each host operation is read at
  an index by its generated stage lemma; what is written here is only where each broadcast and each contraction
  looks: a [2048] vector broadcast to [1, 2048] and then down the rows is read at column o, a per-row sum broadcast
  to [8192, 1] and across the columns is read at row b, and a contraction of the second axes pairs x[b, k] with a[o, k].
-/
import proofs.«149486_j64647847739876_2_alg».proof.Proof.Gen.ReferenceIdeal.Read
import proofs.«149486_j64647847739876_2_alg».proof.Proof.Spec

noncomputable section

open scoped BigOperators

namespace Cert.Fgn.RefSide

open Cert.ReferenceIdeal Cert.ReferenceIdeal.Read Cert.Fgn Idealize.ShloMosaic Idealize.ShloMosaic.ValueIdx

/-! ## Where each layout operation and each contraction looks -/

theorem lidx3 (b : Fin 8192) (o k : Fin 2048) : lidx_main_v3 (ix2 b o) k = ix2 b k :=
  funext fun a => Fin.ext (by match a with | ⟨0, _⟩ => rfl | ⟨1, _⟩ => rfl)
theorem ridx3 (b : Fin 8192) (o k : Fin 2048) : ridx_main_v3 (ix2 b o) k = ix2 o k :=
  funext fun a => Fin.ext (by match a with | ⟨0, _⟩ => rfl | ⟨1, _⟩ => rfl)
theorem lidx12 (b : Fin 8192) (o k : Fin 2048) : lidx_main_v12 (ix2 b o) k = ix2 b k :=
  funext fun a => Fin.ext (by match a with | ⟨0, _⟩ => rfl | ⟨1, _⟩ => rfl)
theorem ridx12 (b : Fin 8192) (o k : Fin 2048) : ridx_main_v12 (ix2 b o) k = ix2 o k :=
  funext fun a => Fin.ext (by match a with | ⟨0, _⟩ => rfl | ⟨1, _⟩ => rfl)
theorem idx5 (b : Fin 8192) (o : Fin 2048) : idx_main_v5 (ix2 b o) = ix2 (0 : Fin 1) o :=
  funext fun a => Fin.ext (by match a with | ⟨0, _⟩ => rfl | ⟨1, _⟩ => rfl)
theorem idx4 (u : Fin 1) (o : Fin 2048) : idx_main_v4 (ix2 u o) = ix1 o :=
  funext fun a => Fin.ext (by match a with | ⟨0, _⟩ => rfl)
theorem idx1 (o k : Fin 2048) : idx_main_v1 (ix1 o) k = ix2 o k :=
  funext fun a => Fin.ext (by match a with | ⟨0, _⟩ => rfl | ⟨1, _⟩ => rfl)
theorem idx14 (b : Fin 8192) (o : Fin 2048) : idx_main_v14 (ix2 b o) = ix2 b (0 : Fin 1) :=
  funext fun a => Fin.ext (by match a with | ⟨0, _⟩ => rfl | ⟨1, _⟩ => rfl)
theorem idx9 (b : Fin 8192) (u : Fin 1) : idx_main_v9 (ix2 b u) = ix1 b :=
  funext fun a => Fin.ext (by match a with | ⟨0, _⟩ => rfl)
theorem idx8 (b : Fin 8192) (k : Fin 2048) : idx_main_v8 (ix1 b) k = ix2 b k :=
  funext fun a => Fin.ext (by match a with | ⟨0, _⟩ => rfl | ⟨1, _⟩ => rfl)
theorem idx15 (b : Fin 8192) (o : Fin 2048) : idx_main_v15 (ix2 b o) = ix2 (0 : Fin 1) o :=
  funext fun a => Fin.ext (by match a with | ⟨0, _⟩ => rfl | ⟨1, _⟩ => rfl)
theorem idx13 (u : Fin 1) (o : Fin 2048) : idx_main_v13 (ix2 u o) = ix1 o :=
  funext fun a => Fin.ext (by match a with | ⟨0, _⟩ => rfl)
theorem idx11 (o k : Fin 2048) : idx_main_v11 (ix1 o) k = ix2 o k :=
  funext fun a => Fin.ext (by match a with | ⟨0, _⟩ => rfl | ⟨1, _⟩ => rfl)
theorem idx25 (b : Fin 8192) (o : Fin 2048) : idx_main_v25 (ix2 b o) = ix2 (0 : Fin 1) o :=
  funext fun a => Fin.ext (by match a with | ⟨0, _⟩ => rfl | ⟨1, _⟩ => rfl)
theorem idx24 (u : Fin 1) (o : Fin 2048) : idx_main_v24 (ix2 u o) = ix1 o :=
  funext fun a => Fin.ext (by match a with | ⟨0, _⟩ => rfl)

/-! ## The pieces -/

/-- The linear term: the contraction plus the broadcast bias. -/
theorem lin_eq (x0 : (⟨S8192x2048, .f32⟩ : BufTy).Contents (Elt Ideal)) (x1 x2 : (⟨S2048x2048, .f32⟩ : BufTy).Contents (Elt Ideal))
    (b : Fin 8192) (o : Fin 2048) :
    val_main_v6 (F := Ideal) x0 x1 x2 (ix2 b o) = lin x0 x1 x2 b o := by
  rw [val_main_v6_apply, val_main_v3_apply, val_main_v5_apply, idx5, val_main_v4_apply, idx4, val_main_v2_apply,
    val_main_v1_apply]
  simp only [lidx3, ridx3, idx1, val_main_v0_apply, val_main_cst_apply, Ideal.addf_def, Ideal.mulf_def, Ideal.hostNegf_def,
    Ideal.negf_def, Ideal.ofBits_def]
  rfl

/-- The clamped distance, the row norm of x summed from the printed zero. -/
theorem dist_eq (x0 : (⟨S8192x2048, .f32⟩ : BufTy).Contents (Elt Ideal)) (x2 : (⟨S2048x2048, .f32⟩ : BufTy).Contents (Elt Ideal))
    (b : Fin 8192) (o : Fin 2048) :
    val_main_v21 (F := Ideal) x0 x2 (ix2 b o) = dist (zero32 + xsq x0 b) x0 x2 b o := by
  rw [val_main_v21_apply, val_main_v19_apply, val_main_v16_apply, val_main_v14_apply, idx14, val_main_v9_apply, idx9,
    val_main_v8_apply, val_main_v15_apply, idx15, val_main_v13_apply, idx13, val_main_v11_apply, val_main_v18_apply,
    val_main_v17_apply, val_main_v12_apply, val_main_v20_apply]
  simp only [lidx12, ridx12, idx8, idx11, val_main_v7_apply, val_main_v10_apply, val_main_cst_0_apply, val_main_cst_1_apply,
    val_main_cst_2_apply, val_main_cst_3_apply, Ideal.addf_def, Ideal.subf_def, Ideal.mulf_def, Ideal.maximumf_def,
    Ideal.ofBits_def]
  rfl

/-- The squared width broadcast to [1, 2048] and down the rows, read at (b, o). -/
theorem sig2_eq (x3 : (⟨S2048, .f32⟩ : BufTy).Contents (Elt Ideal)) (b : Fin 8192) (o : Fin 2048) :
    val_main_v25 (F := Ideal) x3 (ix2 b o) = sig2 x3 o := by
  rw [val_main_v25_apply, idx25, val_main_v24_apply, idx24, val_main_v23_apply]
  rfl

/-! ## The result -/

/-- The reference's result at (b, o). -/
theorem result_apply (x0 : (⟨S8192x2048, .f32⟩ : BufTy).Contents (Elt Ideal)) (x1 x2 : (⟨S2048x2048, .f32⟩ : BufTy).Contents (Elt Ideal))
    (x3 : (⟨S2048, .f32⟩ : BufTy).Contents (Elt Ideal)) (b : Fin 8192) (o : Fin 2048) :
    val_main_v28 (F := Ideal) x0 x1 x2 x3 (ix2 b o) = outDiv x0 x1 x2 x3 b o := by
  rw [val_main_v28_apply, lin_eq, val_main_v27_apply, val_main_v26_apply, val_main_v22_apply, dist_eq, sig2_eq]
  rfl

end Cert.Fgn.RefSide

end
-- ==== Proof.Law.lean ====
/-
  The algebraic law that joins the two programs, over the extended reals: for real entries, multiplying the clamped
  squared distance d by the quotient (−1) / s² and dividing −d by s² give the same entry lin · exp(·).

  Off s² = 0 both exponents are the real −d / s². At s² = 0 the quotient (−1)/0 is −∞ and (−d)/0 is −∞ as well
  (also for d = 0: 0/0 is −∞ here). For d > 0 the product d · (−∞) is −∞ and both envelopes are exp(−∞) = 0. For d = 0 the
  product 0 · (−∞) is 0, so one envelope is exp 0 = 1 and the other exp(−∞) = 0 — but then the expansion
  Σ x² + Σ c² − 2 Σ x c = Σ (x − c)² = 0 forces x[b,k] = c[o,k] for every k, hence
  lin = Σ_k w[o,k]·(x[b,k] − c[o,k]) = 0, and both entries are 0.
-/
import proofs.«149486_j64647847739876_2_alg».proof.Proof.Spec
import Idealize.ShloMosaic.PureOps.Ideal.Laws

noncomputable section

open scoped BigOperators

namespace Cert.Fgn

open Idealize.ShloMosaic Idealize.ShloMosaic.ValueIdx

/-! ### The printed words as reals -/

/-- The word 0.0 denotes 0. -/
theorem zero32_eq : zero32 = 0 := Ideal.ofBits_zero_f32

/-- The word 2.0 denotes the real 2. -/
theorem two32_eq : two32 = ((2 : ℝ) : EReal) := by
  unfold two32
  simp [Ideal.ofBits, Ideal.ieee, -EReal.coe_mul]; norm_num

/-- The word −1.0 denotes the real −1. -/
theorem negOne32_eq : negOne32 = ((-1 : ℝ) : EReal) := by
  unfold negOne32
  simp [Ideal.ofBits, Ideal.ieee, -EReal.coe_mul]; norm_num

/-! ### Coercion of a finite real sum -/

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- The coercion of the larger of two reals is the larger of the coercions. -/
theorem coe_max (a b : ℝ) : ((max a b : ℝ) : EReal) = max (a : EReal) (b : EReal) :=
  EReal.coe_strictMono.monotone.map_max

/-! ### The law on three reals -/

/-- With lin = L, clamped distance D ≥ 0 and s² = q real, and L = 0 whenever D = 0: the two envelopes give one entry. -/
theorem envelope_law (L D q : ℝ) (hD : 0 ≤ D) (h0 : D = 0 → L = 0) :
    (L : EReal) * Ideal.exp ((D : EReal) * Ideal.div ((-1 : ℝ) : EReal) (q : EReal))
      = (L : EReal) * Ideal.exp (Ideal.div (-(D : EReal)) (q : EReal)) := by
  by_cases hq : q = 0
  · subst hq
    -- (−1) / 0 = −∞, and (−D) / 0 = −∞ because −D ≤ 0
    have h1 : Ideal.div ((-1 : ℝ) : EReal) ((0 : ℝ) : EReal) = ⊥ := by
      rw [Ideal.div, if_pos EReal.coe_zero, if_neg]
      rw [EReal.coe_pos]; norm_num
    have h2 : Ideal.div (-(D : EReal)) ((0 : ℝ) : EReal) = ⊥ := by
      rw [Ideal.div, if_pos EReal.coe_zero, if_neg]
      rw [← EReal.coe_neg, EReal.coe_pos]; linarith
    rcases hD.eq_or_lt with hD0 | hDpos
    · -- D = 0: lin = 0 and both entries are 0
      rw [h0 hD0.symm, EReal.coe_zero, zero_mul, zero_mul]
    · -- D > 0: D · (−∞) = −∞
      rw [h1, h2, EReal.coe_mul_bot_of_pos hDpos]
  · -- s² ≠ 0: both exponents are the real −D / q
    rw [Ideal.div_coe hq, Ideal.div_coe hq, ← EReal.coe_neg, ← EReal.coe_mul, ← EReal.coe_mul, ← EReal.coe_mul]
    congr 3
    ring

/-! ### The real identities of the expansion -/

/-- Σ x² + Σ c² − 2 Σ x c = Σ (x − c)². -/
theorem expansion_eq {n : ℕ} (x c : Fin n → ℝ) :
    (∑ k, x k * x k) + (∑ k, c k * c k) - 2 * (∑ k, x k * c k) = ∑ k, (x k - c k) * (x k - c k) := by
  rw [Finset.mul_sum, ← Finset.sum_add_distrib, ← Finset.sum_sub_distrib]
  exact Finset.sum_congr rfl fun k _ => by ring

/-- Σ x w − Σ w c = Σ w (x − c). -/
theorem lin_eq {n : ℕ} (x w c : Fin n → ℝ) :
    (∑ k, x k * w k) - (∑ k, w k * c k) = ∑ k, w k * (x k - c k) := by
  rw [← Finset.sum_sub_distrib]
  exact Finset.sum_congr rfl fun k _ => by ring

/-- If the clamped expansion vanishes, the rows agree entry by entry and the linear term vanishes. -/
theorem lin_zero_of_dist_zero {n : ℕ} (x w c : Fin n → ℝ)
    (h : max ((∑ k, x k * x k) + (∑ k, c k * c k) - 2 * (∑ k, x k * c k)) 0 = 0) :
    (∑ k, x k * w k) - (∑ k, w k * c k) = 0 := by
  rw [expansion_eq] at h
  have hnn : ∀ k ∈ (Finset.univ : Finset (Fin n)), 0 ≤ (x k - c k) * (x k - c k) := fun k _ => mul_self_nonneg _
  have hle : (∑ k, (x k - c k) * (x k - c k)) ≤ 0 := h ▸ le_max_left _ _
  have hz : (∑ k, (x k - c k) * (x k - c k)) = 0 := le_antisymm hle (Finset.sum_nonneg hnn)
  have hk : ∀ k, x k - c k = 0 := fun k =>
    mul_self_eq_zero.mp ((Finset.sum_eq_zero_iff_of_nonneg hnn).mp hz k (Finset.mem_univ k))
  rw [lin_eq]
  exact Finset.sum_eq_zero fun k _ => by rw [hk k, mul_zero]

/-! ### The law on the arrays -/

/-- A sum of products of coerced reals is the coercion of the real sum of products. -/
theorem sum_coe_mul {n : ℕ} (f g : Fin n → ℝ) :
    (∑ k, (f k : EReal) * (g k : EReal)) = ((∑ k, f k * g k : ℝ) : EReal) := by
  rw [coe_sum]
  exact Finset.sum_congr rfl fun k _ => (EReal.coe_mul _ _).symm

/-- A row product of two arrays of reals is the coercion of the real row product. -/
theorem rowDot_coe (x : SX.Idx → ℝ) (a : SW.Idx → ℝ) (b : Fin 8192) (o : Fin 2048) :
    rowDot (fun i => (x i : EReal)) (fun i => (a i : EReal)) b o
      = ((∑ k : Fin 2048, x (ix2 b k) * a (ix2 o k) : ℝ) : EReal) :=
  sum_coe_mul (fun k => x (ix2 b k)) (fun k => a (ix2 o k))

/-- The bias of arrays of reals is the real −Σ_k w[o,k]·c[o,k]. -/
theorem bias_coe (w c : SW.Idx → ℝ) (o : Fin 2048) :
    bias (fun i => (w i : EReal)) (fun i => (c i : EReal)) o
      = ((-(∑ k : Fin 2048, w (ix2 o k) * c (ix2 o k)) : ℝ) : EReal) := by
  unfold bias
  rw [zero32_eq, zero_add, EReal.coe_neg]
  exact congrArg Neg.neg (sum_coe_mul (fun k => w (ix2 o k)) (fun k => c (ix2 o k)))

/-- The linear term of arrays of reals is the real Σ_k x[b,k]·w[o,k] − Σ_k w[o,k]·c[o,k]. -/
theorem lin_coe (x : SX.Idx → ℝ) (w c : SW.Idx → ℝ) (b : Fin 8192) (o : Fin 2048) :
    lin (fun i => (x i : EReal)) (fun i => (w i : EReal)) (fun i => (c i : EReal)) b o
      = (((∑ k : Fin 2048, x (ix2 b k) * w (ix2 o k)) - (∑ k : Fin 2048, w (ix2 o k) * c (ix2 o k)) : ℝ) : EReal) := by
  unfold lin
  rw [rowDot_coe, bias_coe, ← EReal.coe_add, ← sub_eq_add_neg]

/-- The squared norm of a row of reals of c. -/
theorem csq_coe (c : SW.Idx → ℝ) (o : Fin 2048) :
    csq (fun i => (c i : EReal)) o = ((∑ k : Fin 2048, c (ix2 o k) * c (ix2 o k) : ℝ) : EReal) := by
  unfold csq
  rw [zero32_eq, zero_add]
  exact sum_coe_mul (fun k => c (ix2 o k)) (fun k => c (ix2 o k))

/-- The squared norm of a row of reals of x. -/
theorem xsq_coe (x : SX.Idx → ℝ) (b : Fin 8192) :
    xsq (fun i => (x i : EReal)) b = ((∑ k : Fin 2048, x (ix2 b k) * x (ix2 b k) : ℝ) : EReal) :=
  sum_coe_mul (fun k => x (ix2 b k)) (fun k => x (ix2 b k))

/-- The clamped expansion from a real squared norm n is the real max (n + Σ c² − 2 Σ x c) 0. -/
theorem dist_coe (n : ℝ) (x : SX.Idx → ℝ) (c : SW.Idx → ℝ) (b : Fin 8192) (o : Fin 2048) :
    dist (n : EReal) (fun i => (x i : EReal)) (fun i => (c i : EReal)) b o
      = ((max (n + (∑ k : Fin 2048, c (ix2 o k) * c (ix2 o k))
            - 2 * (∑ k : Fin 2048, x (ix2 b k) * c (ix2 o k))) 0 : ℝ) : EReal) := by
  unfold dist
  rw [csq_coe, rowDot_coe, two32_eq, zero32_eq, ← EReal.coe_add, ← EReal.coe_mul, ← EReal.coe_sub, coe_max,
    EReal.coe_zero]

/-- The squared width of an array of reals. -/
theorem sig2_coe (s : SS.Idx → ℝ) (o : Fin 2048) :
    sig2 (fun i => (s i : EReal)) o = ((s (ix1 o) * s (ix1 o) : ℝ) : EReal) :=
  (EReal.coe_mul _ _).symm

/-- For arrays with real entries the two programs' entries agree, at every (b, o). -/
theorem outMul_eq_outDiv (X : SX.Idx → EReal) (W C : SW.Idx → EReal) (S : SS.Idx → EReal)
    (hX : ∀ i, ∃ r : ℝ, X i = (r : EReal)) (hW : ∀ i, ∃ r : ℝ, W i = (r : EReal))
    (hC : ∀ i, ∃ r : ℝ, C i = (r : EReal)) (hS : ∀ i, ∃ r : ℝ, S i = (r : EReal))
    (b : Fin 8192) (o : Fin 2048) : outMul X W C S b o = outDiv X W C S b o := by
  choose x hx using hX
  choose w hw using hW
  choose c hc using hC
  choose s hs using hS
  obtain rfl : X = fun i => (x i : EReal) := funext hx
  obtain rfl : W = fun i => (w i : EReal) := funext hw
  obtain rfl : C = fun i => (c i : EReal) := funext hc
  obtain rfl : S = fun i => (s i : EReal) := funext hs
  unfold outMul outDiv
  rw [lin_coe, xsq_coe, zero32_eq, zero_add, dist_coe, sig2_coe, negOne32_eq]
  exact envelope_law _ _ _ (le_max_right _ _)
    (lin_zero_of_dist_zero (fun k => x (ix2 b k)) (fun k => w (ix2 o k)) (fun k => c (ix2 o k)))

end Cert.Fgn

end
-- ==== Proof.Join.lean ====
/-
  The reference's result as a whole array, for arguments with real entries: at every (b, o) it is the specification's
  `outMul` — the reference computes `outDiv` there, and for real entries the two agree (the law of the envelope).
-/
import proofs.«149486_j64647847739876_2_alg».proof.Proof.RefSide
import proofs.«149486_j64647847739876_2_alg».proof.Proof.Law

noncomputable section

namespace Cert.Fgn.Join

open Cert.ReferenceIdeal Cert.ReferenceIdeal.Read Cert.Fgn Idealize.ShloMosaic Idealize.ShloMosaic.ValueIdx

/-- The reference's result array is `outMul` of the arguments, entry by entry. -/
theorem result_eq (x0 : (⟨S8192x2048, .f32⟩ : BufTy).Contents (Elt Ideal)) (x1 x2 : (⟨S2048x2048, .f32⟩ : BufTy).Contents (Elt Ideal))
    (x3 : (⟨S2048, .f32⟩ : BufTy).Contents (Elt Ideal))
    (h0 : ∀ i, ∃ r : ℝ, x0 i = (r : EReal)) (h1 : ∀ i, ∃ r : ℝ, x1 i = (r : EReal))
    (h2 : ∀ i, ∃ r : ℝ, x2 i = (r : EReal)) (h3 : ∀ i, ∃ r : ℝ, x3 i = (r : EReal)) :
    val_main_v28 (F := Ideal) x0 x1 x2 x3 = fun i => outMul x0 x1 x2 x3 (i 0) (i 1) := by
  funext i
  calc val_main_v28 (F := Ideal) x0 x1 x2 x3 i
      = val_main_v28 (F := Ideal) x0 x1 x2 x3 (ix2 (i 0) (i 1)) := congrArg _ (eq_ix2 i)
    _ = outDiv x0 x1 x2 x3 (i 0) (i 1) := RefSide.result_apply x0 x1 x2 x3 (i 0) (i 1)
    _ = outMul x0 x1 x2 x3 (i 0) (i 1) := (outMul_eq_outDiv x0 x1 x2 x3 h0 h1 h2 h3 (i 0) (i 1)).symm

end Cert.Fgn.Join

end
-- ==== Proof.Finite.lean ====
/-
  From the precondition "every float input is finite" to "every entry of the four argument arrays is a real number".
  The precondition compares |x| with +∞ at every entry of each array, takes the conjunction over all entries (a reduction
  by `and` from 1 onto the one rank-0 index) and joins the four conjunctions by `and`. At the extended reals |x| is
  max x (-x), the word 0x7F800000 denotes ⊤, and an extended real with max x (-x) < ⊤ is neither ⊥ nor ⊤: it is a real.
-/
import proofs.«149486_j64647847739876_2_alg».proof.Pre_finite_inputs
import Idealize.ShloMosaic.PureOps.Ideal
import Idealize.ShloMosaic.Lib.ReduceAll
import Idealize.ShloMosaic.Lib.ValueIdx

namespace Cert.Fgn.Finite

open Idealize.ShloMosaic

/-- The f32 word 0x7F800000 (sign 0, exponent all ones, fraction 0) denotes +∞. -/
theorem ofBits_inf : Ideal.ofBits .f32 0x7F800000#32 = (⊤ : EReal) := by
  simp [Ideal.ofBits, Ideal.ieee]

/-- An extended real whose absolute value max x (-x) is below ⊤ is a real number: ⊥ has -⊥ = ⊤ and ⊤ is ⊤. -/
theorem real_of_abs_lt_top (x : EReal) (h : max x (-x) < ⊤) : ∃ r : ℝ, x = (r : EReal) := by
  induction x using EReal.rec with
  | bot => simp at h
  | coe r => exact ⟨r, rfl⟩
  | top => simp at h

/-- The rank-0 shape has one index. -/
instance : Subsingleton Cert.Pre_finite_inputs.S_.Idx := ⟨fun _ _ => funext fun d => d.elim0⟩

/-- One array: if the conjunction over all entries of `|x| < +∞` is 1, every entry of `x` is a real number. -/
theorem reals_of_all {s u : Shape} {axes : List (Fin s.rank)} (x : FVec Ideal s .f32)
    (hb : Cert.Pre_finite_inputs.S_.BroadcastsInDim s (![] : Fin 0 → Fin s.rank))
    (hr : s.ReducesTo axes Cert.Pre_finite_inputs.S_) (init : u.Idx → BitVec 1) (hu : 0 < u.numel)
    (j : Cert.Pre_finite_inputs.S_.Idx)
    (e : Host.reduce IntOp.andi
        (cmpf .olt (Host.absf x) (broadcastInDim s ![] hb (constant Cert.Pre_finite_inputs.S_ .f32 0x7F800000#32)))
        init hr hu j = 1#1) :
    ∀ i, ∃ r : ℝ, x i = (r : EReal) := by
  intro i
  have h1 := Host.reduce_andi_all _ init hr hu j e i
  change Ideal.cmp .olt (max (x i : EReal) (-(x i : EReal))) (Ideal.ofBits .f32 0x7F800000#32) = 1#1 at h1
  rw [ofBits_inf] at h1
  refine real_of_abs_lt_top (x i) ?_
  by_contra hn
  simp [Ideal.cmp, hn] at h1

theorem reals_of_pre [Cert.Pre_finite_inputs.Facts]
    (a0 : FVec Ideal Cert.Pre_finite_inputs.S8192x2048 .f32) (a1 a2 : FVec Ideal Cert.Pre_finite_inputs.S2048x2048 .f32)
    (a3 : FVec Ideal Cert.Pre_finite_inputs.S2048 .f32)
    (h : Cert.Pre_finite_inputs.fn (F := Ideal) a0 a1 a2 a3 = fun _ => 1#1) :
    (∀ i, ∃ r : ℝ, a0 i = (r : EReal)) ∧ (∀ i, ∃ r : ℝ, a1 i = (r : EReal)) ∧ (∀ i, ∃ r : ℝ, a2 i = (r : EReal)) ∧ (∀ i, ∃ r : ℝ, a3 i = (r : EReal)) := by
  have h0 := congrFun h ValueIdx.ix0
  dsimp only [Cert.Pre_finite_inputs.fn, Cert.Pre_finite_inputs.fn_part1] at h0
  obtain ⟨h012, h3⟩ := IntOp.andi_eq_one.1 h0
  obtain ⟨h01, h2⟩ := IntOp.andi_eq_one.1 h012
  obtain ⟨h0', h1⟩ := IntOp.andi_eq_one.1 h01
  exact ⟨reals_of_all a0 _ _ _ _ _ h0', reals_of_all a1 _ _ _ _ _ h1, reals_of_all a2 _ _ _ _ _ h2,
    reals_of_all a3 _ _ _ _ _ h3⟩

end Cert.Fgn.Finite
-- ==== Proof.lean ====
/-
  The certificate of a Gaussian-envelope linear layer: for x : [8192, 2048], w, c : [2048, 2048] and s : [2048] the
  kernel and the reference both compute, at (b, o),

      (Σ_k x[b,k]·w[o,k] − Σ_k w[o,k]·c[o,k]) · exp(−d(b, o) / s[o]²),
      d(b, o) = max(Σ_k x[b,k]² + Σ_k c[o,k]² − 2·Σ_k x[b,k]·c[o,k], 0).

  The kernel tiles the result in 8 × 8 blocks of [1024, 256], takes the bias row, the squared norms of c and the
  quotient (−1) / s² from the host, and MULTIPLIES d by that quotient; the reference DIVIDES −d by s². Over the extended
  reals, with every input entry a real number (the precondition), the two exponents are the same real when s[o] ≠ 0;
  when s[o] = 0 they are both −∞ unless d = 0, and d = 0 means row b of x IS row o of c, where the linear factor
  Σ_k w[o,k]·(x[b,k] − c[o,k]) vanishes, so both results are 0.

  The three frames are the generated ones (the reference's is its generated run with the result dropped), the
  idealization rewrote nothing, and the value claim sets the kernel's result array (its blocks read as one function of
  the arguments) beside the reference's run read entry by entry.
-/
import proofs.«149486_j64647847739876_2_alg».proof.Defs
import proofs.«149486_j64647847739876_2_alg».proof.Proof.Gen.Kernel
import proofs.«149486_j64647847739876_2_alg».proof.Proof.Gen.Kernel.Skeleton
import proofs.«149486_j64647847739876_2_alg».proof.Proof.Gen.Kernel.Launch
import proofs.«149486_j64647847739876_2_alg».proof.Proof.Gen.Kernel.Points
import proofs.«149486_j64647847739876_2_alg».proof.Proof.Gen.Kernel.Frame
import proofs.«149486_j64647847739876_2_alg».proof.Proof.Gen.KernelIdeal
import proofs.«149486_j64647847739876_2_alg».proof.Proof.Gen.KernelIdeal.Skeleton
import proofs.«149486_j64647847739876_2_alg».proof.Proof.Gen.KernelIdeal.Launch
import proofs.«149486_j64647847739876_2_alg».proof.Proof.Gen.KernelIdeal.Points
import proofs.«149486_j64647847739876_2_alg».proof.Proof.Gen.KernelIdeal.Frame
import proofs.«149486_j64647847739876_2_alg».proof.Proof.Gen.ReferenceIdeal
import proofs.«149486_j64647847739876_2_alg».proof.Proof.Gen.Pre_finite_inputs
import proofs.«149486_j64647847739876_2_alg».proof.Proof.Gen.KernelIdeal.Value
import proofs.«149486_j64647847739876_2_alg».proof.Proof.Gen.ReferenceIdeal.Run
import proofs.«149486_j64647847739876_2_alg».proof.Proof.Gen.ReferenceIdeal.Read
import proofs.«149486_j64647847739876_2_alg».proof.Proof.Blocks
import proofs.«149486_j64647847739876_2_alg».proof.Proof.Join
import proofs.«149486_j64647847739876_2_alg».proof.Proof.Finite
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the result array at `outMul` of the argument arrays: the kernel by its blocks, the reference
    by its run read entry by entry and the law of the envelope, which uses that every entry is a real number. -/
theorem algebraic : Cert.algebraic_KernelIdeal_ReferenceIdeal := fun m ρ m' ρ' hpre hagree =>
  ⟨fun c => Cert.Fgn.Blocks.G m c, Cert.Fgn.Blocks.run m ρ,
    (θ_run Cert.ReferenceIdeal.defs _ _).mono (fun _ h c => ⟨(h c).1.trans (by
        rw [(hagree c).1, (hagree c).2.1, (hagree c).2.2.1, (hagree c).2.2.2]
        obtain ⟨h0, h1, h2, h3⟩ := Cert.Fgn.Finite.reals_of_pre _ _ _ _ (hpre c)
        exact (Cert.ReferenceIdeal.Read.val_main_v28_eq (F := Ideal) _ _ _ _).trans
          (Cert.Fgn.Join.result_eq _ _ _ _ h0 h1 h2 h3)), (h c).2⟩)
      (Cert.ReferenceIdeal.Value.run (F := Ideal) m' ρ')⟩

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
